-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S4096x1024 : Shape := ⟨2, ![4096, 1024]⟩
abbrev S512 : Shape := ⟨1, ![512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8192x1024 .f32) (main_arg1 : FVec F S1024x1024 .f32) (main_arg2 : FVec F S4096x1024 .f32) (main_arg3 : FVec F S512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8192x1024 : Shape := ⟨2, ![8192, 1024]⟩
abbrev S1024x1024 : Shape := ⟨2, ![1024, 1024]⟩
abbrev S4096x1024 : Shape := ⟨2, ![4096, 1024]⟩
abbrev S512 : Shape := ⟨1, ![512]⟩
abbrev S512x2 : Shape := ⟨2, ![512, 2]⟩
abbrev S1024 : Shape := ⟨1, ![1024]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩

abbrev nBuf : Space → Nat
  | .hbm => 12
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S4096x1024, .f32⟩
  | .hbm, ⟨3, _⟩ => ⟨S512, .f32⟩
  | .hbm, ⟨4, _⟩ => ⟨S512x2, .f32⟩
  | .hbm, ⟨5, _⟩ => ⟨S1024, .f32⟩
  | .hbm, ⟨6, _⟩ => ⟨S1x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S4096x1024, .bf16⟩
  | .hbm, ⟨11, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S4096x1024, .bf16⟩
  | .local _ .vmem, ⟨4, _⟩ => ⟨S512x4096, .f32⟩
  | .local _ .vmem, ⟨5, _⟩ => ⟨S512x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c1024_i32 : BitVec 32 := 1024#32
  let v6 : BitVec 32 := Scalar.muli c0_i32 c1024_i32
  v6
def k0_off1 (c0_i32 : BitVec 32) : Fin 2 → Nat :=
  let c1024_i32 : BitVec 32 := 1024#32
  let v6 : BitVec 32 := Scalar.muli c0_i32 c1024_i32
  let v7 : BitVec 32 := v6
  let v8 : Index := Scalar.indexCast v7
  let c0_3 : Index := 0#32
  ![v8.toNat, 0]
def k0_off2 (c0_i32 : BitVec 32) : Fin 2 → Nat :=
  let c0_5 : Index := 0#32
  let c1024_i32 : BitVec 32 := 1024#32
  let v6 : BitVec 32 := Scalar.muli c0_i32 c1024_i32
  let v7 : BitVec 32 := v6
  let v12 : Index := Scalar.indexCast v7
  ![0, v12.toNat]
def k0_mult2 : BitVec 32 :=
  let c1_i32 : BitVec 32 := 1#32
  let c1024_i32_6 : BitVec 32 := 1024#32
  let v14 : BitVec 32 := Scalar.muli c1_i32 c1024_i32_6
  v14
def k0_mult3 : BitVec 32 :=
  let c2_i32 : BitVec 32 := 2#32
  let c1024_i32_10 : BitVec 32 := 1024#32
  let v22 : BitVec 32 := Scalar.muli c2_i32 c1024_i32_10
  v22
def k0_mult4 : BitVec 32 :=
  let c3_i32 : BitVec 32 := 3#32
  let c1024_i32_14 : BitVec 32 := 1024#32
  let v30 : BitVec 32 := Scalar.muli c3_i32 c1024_i32_14
  v30
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S512_S512x2_0 : S512.BroadcastsInDim S512x2 (![0] : Fin 1 → Fin S512x2.rank)
  shapeCasts_S512x2_S1024 : S512x2.ShapeCasts S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x1024_S1024x1024_S512x1024_1_0_0_1_n_n_wf : DotDims.WF S512x1024 S1024x1024 S512x1024 [1] [0] [0] [1] [] []
  dot_S512x1024_S1024x1024_S512x1024_1_1_0_0_n_n_wf : DotDims.WF S512x1024 S1024x1024 S512x1024 [1] [1] [0] [0] [] []
  hrank0 : 0 < grid0.rank
  k0_mult1_dvd : 128 ∣ k0_mult1.toNat
  k0_off1_inb : ∀ (r : Fin 4), ∀ a, (k0_off1 (BitVec.ofNat 32 r.val)) a + S1024x1024.size a ≤ S4096x1024.size a
  k0_off2_inb : ∀ (r : Fin 4), ∀ a, (k0_off2 (BitVec.ofNat 32 r.val)) a + S512x1024.size a ≤ S512x4096.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S4096x1024 : Shape := ⟨2, ![4096, 1024]⟩
abbrev S512 : Shape := ⟨1, ![512]⟩
abbrev S512x2 : Shape := ⟨2, ![512, 2]⟩
abbrev S1024 : Shape := ⟨1, ![1024]⟩
abbrev S1x1024 : Shape := ⟨2, ![1, 1024]⟩
abbrev S1024x4096 : Shape := ⟨2, ![1024, 4096]⟩
abbrev S8192x4096 : Shape := ⟨2, ![8192, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S4096x1024, .f32⟩
  | .hbm, ⟨3, _⟩ => ⟨S512, .f32⟩
  | .hbm, ⟨4, _⟩ => ⟨S512x2, .f32⟩
  | .hbm, ⟨5, _⟩ => ⟨S1024, .f32⟩
  | .hbm, ⟨6, _⟩ => ⟨S1x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S1024x4096, .f32⟩
  | .hbm, ⟨11, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S512_S512x2_0 : S512.BroadcastsInDim S512x2 (![0] : Fin 1 → Fin S512x2.rank)
  shapeCasts_S512x2_S1024 : S512x2.ShapeCasts S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  transposes_S4096x1024_S1024x4096_1_0 : S4096x1024.Transposes [1, 0] S1024x4096
  dot_S8192x1024_S1024x1024_S8192x1024_1_0_0_1_n_n_wf : DotDims.WF S8192x1024 S1024x1024 S8192x1024 [1] [0] [0] [1] [] []
  dot_S8192x1024_S1024x4096_S8192x4096_1_0_0_1_n_n_wf : DotDims.WF S8192x1024 S1024x4096 S8192x4096 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibTwoProducts.lean ====
/-
  The value both programs compute: an array `x` of M rows multiplied by a K×L matrix `b` and the product then
  multiplied by the transpose of an N×L matrix `c`. Entry (p, q) of the result is

      ∑ k < L, (∑ i < K, x[p,i] · b[i,k]) · c[q,k].

  Row p of the result reads row p of `x`, all of `b`, and row q of `c`, and nothing else: so a block of rows of `x`
  against the same `b` and `c` gives the same rows of the result, and a block of rows of `c` gives the same columns
  (`through_congr`). No law of the extended reals is used: the two sides of the comparison are the same sums of the
  same products in the same order.
-/
import Idealize.ShloMosaic.Lib.ValueIdx
import proofs.«108876_j52269751992477_2_alg».proof.Proof.LibPlainDot

noncomputable section

namespace Cert.TwoProducts

open Idealize.ShloMosaic Idealize.ShloMosaic.ValueIdx
open Cert.Lib.PlainDot (rowsByCols)

/-- Entry (p, q) of (x · b) · cᵀ. -/
def throughAt {M K L N : ℕ} (x : (⟨2, ![M, K]⟩ : Shape).Idx → EReal) (b : (⟨2, ![K, L]⟩ : Shape).Idx → EReal)
    (c : (⟨2, ![N, L]⟩ : Shape).Idx → EReal) (p : Fin M) (q : Fin N) : EReal :=
  ∑ k : Fin L, (∑ i : Fin K, x (ix2 p i) * b (ix2 i k)) * c (ix2 q k)

/-- (x · b) · cᵀ as a whole array. -/
def through {M K L N : ℕ} (x : (⟨2, ![M, K]⟩ : Shape).Idx → EReal) (b : (⟨2, ![K, L]⟩ : Shape).Idx → EReal)
    (c : (⟨2, ![N, L]⟩ : Shape).Idx → EReal) : (⟨2, ![M, N]⟩ : Shape).Idx → EReal :=
  fun j => throughAt x b c (j 0) (j 1)

theorem through_ix2 {M K L N : ℕ} (x : (⟨2, ![M, K]⟩ : Shape).Idx → EReal) (b : (⟨2, ![K, L]⟩ : Shape).Idx → EReal)
    (c : (⟨2, ![N, L]⟩ : Shape).Idx → EReal) (p : Fin M) (q : Fin N) :
    through x b c (ix2 p q) = throughAt x b c p q := rfl

/-- The inner sum is an entry of the product x · b. -/
theorem throughAt_rowsByCols {M K L N : ℕ} (x : (⟨2, ![M, K]⟩ : Shape).Idx → EReal)
    (b : (⟨2, ![K, L]⟩ : Shape).Idx → EReal) (c : (⟨2, ![N, L]⟩ : Shape).Idx → EReal) (p : Fin M) (q : Fin N) :
    ∑ k : Fin L, rowsByCols x b (ix2 p k) * c (ix2 q k) = throughAt x b c p q := rfl

/-- Entry (p', q') computed from arrays x', b', c' is entry (p, q) computed from x, b, c when row p' of x' is row p
    of x, b' is b, and row q' of c' is row q of c. -/
theorem throughAt_congr {M M' K L N N' : ℕ}
    (x : (⟨2, ![M, K]⟩ : Shape).Idx → EReal) (b : (⟨2, ![K, L]⟩ : Shape).Idx → EReal) (c : (⟨2, ![N, L]⟩ : Shape).Idx → EReal)
    (x' : (⟨2, ![M', K]⟩ : Shape).Idx → EReal) (b' : (⟨2, ![K, L]⟩ : Shape).Idx → EReal) (c' : (⟨2, ![N', L]⟩ : Shape).Idx → EReal)
    (p : Fin M) (q : Fin N) (p' : Fin M') (q' : Fin N')
    (hx : ∀ i : Fin K, x' (ix2 p' i) = x (ix2 p i)) (hb : ∀ (i : Fin K) (k : Fin L), b' (ix2 i k) = b (ix2 i k))
    (hc : ∀ k : Fin L, c' (ix2 q' k) = c (ix2 q k)) :
    throughAt x' b' c' p' q' = throughAt x b c p q := by
  unfold throughAt
  refine Finset.sum_congr rfl fun k _ => ?_
  rw [hc k]
  refine congrArg (· * c (ix2 q k)) ?_
  exact Finset.sum_congr rfl fun i _ => by rw [hx i, hb i k]

end Cert.TwoProducts

end
-- ==== Proof.LibRowsDot.lean ====
/-
  A product of rows: for matrices `l` of M rows and `r` of N rows, both of width K, the contraction of the second
  axis of each — the dimension numbers ⟨[1], [1], [0], [0], [], []⟩ of `DotDims.transposedRhs` — read at the output
  index (a, b) is the sum over k < K of l[a, k] · r[b, k]. The contraction index of the dimension record is a
  one-coordinate tuple; the sum is re-indexed through that coordinate.
-/
import Idealize.ShloMosaic.PureOps.Ideal.Laws
import Idealize.ShloMosaic.Lib.ValueIdx

noncomputable section

namespace Cert.RowsDot

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (a, b) and contraction coordinate k is (a, k). -/
theorem lhs_at {M K N : Nat} (a : Fin M) (b : Fin N) (k : Fin K) :
    (DotDims.transposedRhs M K N).lhsIdx (ix2 a b) ((contrEquiv1 (DotDims.transposedRhs M K N) K rfl rfl).symm k) = ix2 a k := by
  have hk := contrEquiv1_symm_val (DotDims.transposedRhs M K N) K rfl rfl k
  funext x
  apply Fin.ext
  match x with
  | ⟨0, _⟩ => exact lhs_row _ _
  | ⟨1, _⟩ => exact ((DotDims.transposedRhs M K N).lhsIdx_val_of_single rfl _ _).trans hk

/-- The right operand's index there is (b, k). -/
theorem rhs_at {M K N : Nat} (a : Fin M) (b : Fin N) (k : Fin K) :
    (DotDims.transposedRhs M K N).rhsIdx (ix2 a b) ((contrEquiv1 (DotDims.transposedRhs M K N) K rfl rfl).symm k) = ix2 b k := by
  have hk := contrEquiv1_symm_val (DotDims.transposedRhs M K N) K rfl rfl k
  funext x
  apply Fin.ext
  match x with
  | ⟨0, _⟩ => exact rhs_row _ _
  | ⟨1, _⟩ => exact ((DotDims.transposedRhs M K N).rhsIdx_val_of_single rfl _ _).trans hk

/-- The contraction's sum at (a, b) is the sum over the shared width of the two rows' products. -/
theorem sum_at {M K N : Nat} (l : (⟨2, ![M, K]⟩ : Shape).Idx → EReal) (r : (⟨2, ![N, K]⟩ : Shape).Idx → EReal)
    (a : Fin M) (b : Fin N) :
    ∑ q : (DotDims.transposedRhs M K N).contr.Idx,
        l ((DotDims.transposedRhs M K N).lhsIdx (ix2 a b) q) * r ((DotDims.transposedRhs M K N).rhsIdx (ix2 a b) q)
      = ∑ k : Fin K, l (ix2 a k) * r (ix2 b k) := by
  rw [← Equiv.sum_comp (contrEquiv1 (DotDims.transposedRhs M K N) K rfl rfl).symm]
  refine Finset.sum_congr rfl fun k _ => ?_
  rw [lhs_at, rhs_at]

/-- A matrix unit's product into a zero accumulator, at the ideal values: that sum. -/
theorem matmul_zero_at {M K N : Nat} {φ₁ φ₂ : FTy} (l : FVec Ideal ⟨2, ![M, K]⟩ φ₁) (r : FVec Ideal ⟨2, ![N, K]⟩ φ₂)
    (a : Fin M) (b : Fin N) :
    FloatOps.matmul (DotDims.transposedRhs M K N) none l r (constant ⟨2, ![M, N]⟩ .f32 0x00000000#32) (ix2 a b)
      = ∑ k : Fin K, l (ix2 a k) * r (ix2 b k) :=
  (Ideal.matmul_constant_zero_apply _ none l r (ix2 a b)).trans (sum_at l r a b)

/-- The same for any dimension record that IS that one (a printed program names its own). -/
theorem matmul_zero_at_of_eq {M K N : Nat} {φ₁ φ₂ : FTy} (D : DotDims ⟨2, ![M, K]⟩ ⟨2, ![N, K]⟩ ⟨2, ![M, N]⟩)
    (hD : D = DotDims.transposedRhs M K N) (l : FVec Ideal ⟨2, ![M, K]⟩ φ₁) (r : FVec Ideal ⟨2, ![N, K]⟩ φ₂)
    (a : Fin M) (b : Fin N) :
    FloatOps.matmul D none l r (constant ⟨2, ![M, N]⟩ .f32 0x00000000#32) (ix2 a b)
      = ∑ k : Fin K, l (ix2 a k) * r (ix2 b k) := by
  subst hD
  exact matmul_zero_at l r a b

end Cert.RowsDot

end
-- ==== Proof.BlockValue.lean ====
/-
  What one grid point leaves in the output's staging buffer, read as a value on the extended reals.

  At a grid point the body holds a block `x0` of 512 rows of x (width 1024), the whole scaled matrix `x1`
  (1024 × 1024) and the whole matrix `x2` (4096 rows of width 1024). It forms y = x0 · x1 once, and for each of the
  four consecutive chunks of 1024 rows of x2 stores y · chunkᵀ into the matching 1024 columns of the 512 × 4096 output
  block. A change of float format is the identity on extended reals and both products start from a zero accumulator,
  so entry (p, q) of the block is ∑ k, (∑ i, x0[p,i] · x1[i,k]) · x2[q,k] whichever chunk q falls in: the four stores
  are four column ranges of ONE function of the block index, `through x0 x1 x2`.
-/
import proofs.«108876_j52269751992477_2_alg».proof.Proof.Gen.KernelIdeal.Frame
import Idealize.ShloMosaic.Lib.Pipeline.Value
import Idealize.ShloMosaic.Lib.ValueIdx
import Idealize.ShloMosaic.PureOps.Ideal.Laws
import proofs.«108876_j52269751992477_2_alg».proof.Proof.LibTwoProducts
import proofs.«108876_j52269751992477_2_alg».proof.Proof.LibPlainDot
import proofs.«108876_j52269751992477_2_alg».proof.Proof.LibRowsDot

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.Tactic Idealize.ShloMosaic.ValueIdx
open Cert.TwoProducts
open Cert.Lib.PlainDot (rowsByCols)

theorem hz : (![0, 0] : Fin 2 → Nat) = fun _ => 0 := funext fun a => by fin_cases a <;> rfl

/-- The first product: the block of rows times the scaled matrix, entry (p, k) = ∑ i, x0[p,i] · x1[i,k]. The two
    roundings to the narrow format around it are the identity. -/
theorem first_product (x0 : FVec Ideal S512x1024 .f32) (x1 : FVec Ideal S1024x1024 .bf16) :
    k0_pay2 (F := Ideal) x0 x1 = rowsByCols x0 x1 := by
  unfold k0_pay2
  rw [shapeCast_self]
  exact Cert.Lib.PlainDot.matmul_zero_eq (φ₁ := .bf16) (φ₂ := .bf16) _ rfl none _ _

/-- The second product against one chunk `cc` of 1024 rows of the last matrix, contracted over the shared width:
    entry (p, q) = ∑ k, y[p,k] · cc[q,k]. -/
theorem second_product (y : FVec Ideal S512x1024 .bf16) (cc : FVec Ideal S1024x1024 .bf16) (p : Fin 512) (q : Fin 1024) :
    FloatOps.matmul dot_S512x1024_S1024x1024_S512x1024_1_1_0_0_n_n none y
        (shapeCast S1024x1024 cc shapeCasts_S1024x1024_S1024x1024) (constant (F := Ideal) S512x1024 .f32 0x00000000#32) (ix2 p q)
      = ∑ k : Fin 1024, y (ix2 p k) * cc (ix2 q k) := by
  rw [shapeCast_self]
  exact Cert.RowsDot.matmul_zero_at_of_eq (φ₁ := .bf16) (φ₂ := .bf16) _ rfl y cc p q

/-- Each of the four stored values, at (p, q) of its 512 × 1024 piece: ∑ k, (x0 · x1)[p,k] · cc[q,k]. -/
theorem chunk_at (x0 : FVec Ideal S512x1024 .f32) (x1 : FVec Ideal S1024x1024 .bf16) (cc : FVec Ideal S1024x1024 .bf16)
    (p : Fin 512) (q : Fin 1024) :
    FloatOps.matmul dot_S512x1024_S1024x1024_S512x1024_1_1_0_0_n_n none (k0_pay2 (F := Ideal) x0 x1)
        (shapeCast S1024x1024 cc shapeCasts_S1024x1024_S1024x1024) (constant (F := Ideal) S512x1024 .f32 0x00000000#32) (ix2 p q)
      = ∑ k : Fin 1024, rowsByCols x0 x1 (ix2 p k) * cc (ix2 q k) :=
  (second_product (k0_pay2 (F := Ideal) x0 x1) cc p q).trans (by rw [first_product])

theorem pay3_at (x0 : FVec Ideal S512x1024 .f32) (x1 : FVec Ideal S1024x1024 .bf16) (cc : FVec Ideal S1024x1024 .bf16)
    (p : Fin 512) (q : Fin 1024) :
    k0_pay3 (F := Ideal) x0 x1 cc (ix2 p q) = ∑ k : Fin 1024, rowsByCols x0 x1 (ix2 p k) * cc (ix2 q k) :=
  chunk_at x0 x1 cc p q
theorem pay4_at (x0 : FVec Ideal S512x1024 .f32) (x1 : FVec Ideal S1024x1024 .bf16) (cc : FVec Ideal S1024x1024 .bf16)
    (p : Fin 512) (q : Fin 1024) :
    k0_pay4 (F := Ideal) x0 x1 cc (ix2 p q) = ∑ k : Fin 1024, rowsByCols x0 x1 (ix2 p k) * cc (ix2 q k) :=
  chunk_at x0 x1 cc p q
theorem pay5_at (x0 : FVec Ideal S512x1024 .f32) (x1 : FVec Ideal S1024x1024 .bf16) (cc : FVec Ideal S1024x1024 .bf16)
    (p : Fin 512) (q : Fin 1024) :
    k0_pay5 (F := Ideal) x0 x1 cc (ix2 p q) = ∑ k : Fin 1024, rowsByCols x0 x1 (ix2 p k) * cc (ix2 q k) :=
  chunk_at x0 x1 cc p q
theorem pay1_at (x0 : FVec Ideal S512x1024 .f32) (x1 : FVec Ideal S1024x1024 .bf16) (cc : FVec Ideal S1024x1024 .bf16)
    (p : Fin 512) (q : Fin 1024) :
    k0_pay1 (F := Ideal) (k0_pay2 (F := Ideal) x0 x1) cc (ix2 p q) = ∑ k : Fin 1024, rowsByCols x0 x1 (ix2 p k) * cc (ix2 q k) :=
  chunk_at x0 x1 cc p q

/-- A store of a 512 × 1024 piece at column offset `o` whose value at (p, q) is ∑ k, (x0 · x1)[p,k] · cc[q,k], with
    `cc` the 1024 rows of x2 from row `o`, agrees with `through x0 x1 x2` on the piece's rectangle: column o + q of
    the block reads row o + q of x2. -/
theorem store_agrees (o : ℕ)
    (inbS : ∀ a, (![0, o] : Fin 2 → ℕ) a + (![512, 1024] : Fin 2 → ℕ) a ≤ S512x4096.size a)
    (inbL : ∀ a, (![o, 0] : Fin 2 → ℕ) a + (![1024, 1024] : Fin 2 → ℕ) a ≤ S4096x1024.size a)
    (x0 : FVec Ideal S512x1024 .f32) (x1 : FVec Ideal S1024x1024 .bf16) (x2 : FVec Ideal S4096x1024 .bf16)
    (pay : (⟨2, ![512, 1024]⟩ : Shape).Idx → EReal)
    (hpay : ∀ (p : Fin 512) (q : Fin 1024), pay (ix2 p q)
      = ∑ k : Fin 1024, rowsByCols x0 x1 (ix2 p k) * View.ld (Val := Elt Ideal) (e' := EltTy.bf16) x2 (Rect.unit (s := S4096x1024) ![o, 0] ![1024, 1024] inbL) (ix2 q k))
    (x : (Rect.unit (s := S512x4096) ![0, o] ![512, 1024] inbS).shape.Idx) :
    pay x = through x0 x1 x2 ((Rect.unit (s := S512x4096) ![0, o] ![512, 1024] inbS).emb x) := by
  obtain ⟨p, q, rfl⟩ : ∃ (p : Fin 512) (q : Fin 1024), x = ix2 p q := ⟨x 0, x 1, eq_ix2 x⟩
  rw [hpay p q]
  have hq : o + q.val < 4096 := by
    have h := inbL 0
    have h' : o + 1024 ≤ 4096 := h
    have := q.isLt
    omega
  have e : (Rect.unit (s := S512x4096) ![0, o] ![512, 1024] inbS).emb (ix2 p q) = ix2 p (⟨o + q.val, hq⟩ : Fin 4096) := by
    funext a; apply Fin.ext
    match a with
    | ⟨0, _⟩ => show 0 + 1 * p.val = p.val; omega
    | ⟨1, _⟩ => show o + 1 * q.val = o + q.val; omega
  rw [e, through_ix2, ← throughAt_rowsByCols]
  refine Finset.sum_congr rfl fun k _ => ?_
  refine congrArg (rowsByCols x0 x1 (ix2 p k) * ·) ?_
  show x2 ((Rect.unit (s := S4096x1024) ![o, 0] ![1024, 1024] inbL).idx (ix2 q k)) = x2 (ix2 (⟨o + q.val, hq⟩ : Fin 4096) k)
  refine congrArg x2 ?_
  funext a; apply Fin.ext
  match a with
  | ⟨0, _⟩ => show o + 1 * q.val = o + q.val; omega
  | ⟨1, _⟩ => show 0 + 1 * k.val = k.val; omega

end Cert.KernelIdeal.BlockValue

end
-- ==== Proof.BlockPieces.lean ====
/-
  The output block after the body, as one function of the three blocks the body read.

  The run of the body leaves four pieces in the output's staging buffer: 512 × 1024 rectangles at column offsets
  0, 1024, 2048 and 3072, which tile the 512 × 4096 block. The piece at offset o holds the product of x0 · x1 with
  the rows o … o + 1023 of x2, so every piece is the restriction of `through x0 x1 x2` to its rectangle, and a
  buffer covered by pieces that all agree with one function holds that function.
-/
import proofs.«108876_j52269751992477_2_alg».proof.Proof.BlockValue

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.Tactic Idealize.ShloMosaic.ValueIdx
open Cert.TwoProducts

/-- What the body leaves in the output's staging buffer is (x0 · x1) · x2ᵀ of the blocks it read, whatever staging
    memrefs it ran on. -/
theorem out_block (c : Dev nD) (i : grid0.Coords) (arg1 : Memref sig .tc .vmem S512x1024 .f32) (harg1 : arg1.IsWhole)
    (arg2 : Memref sig .tc .vmem S1024x1024 .bf16) (harg2 : arg2.IsWhole)
    (arg3 : Memref sig .tc .vmem S4096x1024 .bf16) (harg3 : arg3.IsWhole)
    (arg4 : Memref sig .tc .vmem S512x4096 .f32) (harg4 : arg4.IsWhole)
    (x0 : Vec Ideal S512x1024 .f32) (x1 : Vec Ideal S1024x1024 .bf16) (x2 : Vec Ideal S4096x1024 .bf16) :
    out0_A_3 (F := Ideal) c i arg1 harg1 arg2 harg2 arg3 harg3 arg4 harg4 x0 x1 x2 = through x0 x1 x2 := by
  unfold out0_A_3
  rw [View.read_writes_eq_canon _ _ _ (cover0_A_3 c i arg1 harg1 arg2 harg2 arg3 harg3 arg4 harg4 x0 x1 x2)]
  funext y
  refine View.canon_apply_of_pieces (through x0 x1 x2) _ ?_ y
    (cover0_A_3 c i arg1 harg1 arg2 harg2 arg3 harg3 arg4 harg4 x0 x1 x2 y)
  unfold kernelRun0_A
  dsimp only
  sl_unfold_words
  simp only [View.readAt_eq_ld, harg1.read_unread, harg2.read_unread, harg3.read_unread,
    View.ld_unit_zero (S := S512x1024) hz, View.ld_unit_zero (S := S1024x1024) hz]
  intro pc hpc
  simp only [List.mem_cons, List.mem_nil_iff, or_false] at hpc
  rcases hpc with rfl | rfl | rfl | rfl
  · dsimp only
    exact store_agrees 3072 _ _ x0 x1 x2 _ (fun p q => pay1_at x0 x1 _ p q)
  · dsimp only
    exact store_agrees 2048 _ _ x0 x1 x2 _ (fun p q => pay5_at x0 x1 _ p q)
  · dsimp only
    exact store_agrees 1024 _ _ x0 x1 x2 _ (fun p q => pay4_at x0 x1 _ p q)
  · dsimp only
    exact store_agrees 0 _ _ x0 x1 x2 _ (fun p q => pay3_at x0 x1 _ p q)

end Cert.KernelIdeal.BlockValue

end
-- ==== Proof.ArrayValue.lean ====
/-
  From the blocks to the whole array: what the kernel's result holds after the run.

  The grid has 16 points. Point t stages rows 512·t … 512·t + 511 of x, the whole scaled matrix and the whole last
  matrix (their block index never moves), and writes back rows 512·t … 512·t + 511 of the 8192 × 4096 result. Entry
  (p, q) of what point t writes is entry (512·t + p, q) of `through x bs c` of the WHOLE arrays, because that entry
  reads only row 512·t + p of x, all of bs and row q of c. The 16 blocks of rows tile the result (row r is in block
  r / 512), so the result array ends holding `through x bs c`.

  The two arrays the region finds beside x were written by the host operations before it: bs is B with column k
  scaled by the k-th entry of the doubled vector of scales, narrowed in format (the identity on extended reals), and c
  is the last argument narrowed in format (again the identity).
-/
import proofs.«108876_j52269751992477_2_alg».proof.Proof.Gen.KernelIdeal.Value
import proofs.«108876_j52269751992477_2_alg».proof.Proof.BlockPieces
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx
open Cert.TwoProducts Cert.KernelIdeal.BlockValue

variable (m : (ℓ : Loc nD τ sig) → Buf (Elt Ideal) ℓ) (ρ : Dev nD → PrngReg)

/-- B with its columns scaled: column k of `x1` times entry k of the vector of scales `x3` repeated twice in place
    (a [512] vector spread to [512,2], flattened to [1024], then spread over the rows of a 1024 × 1024 array). -/
def scaled (x1 : FVec Ideal S1024x1024 .f32) (x3 : FVec Ideal S512 .f32) : FVec Ideal S1024x1024 .f32 :=
  mulf x1 (broadcastInDim S1024x1024 ![0, 1] bcast_S1x1024_S1024x1024_0_1
    (broadcastInDim S1x1024 ![1] bcast_S1024_S1x1024_1
      (shapeCast _ (broadcastInDim S512x2 ![0] bcast_S512_S512x2_0 x3) shapeCasts_S512x2_S1024)))

/-- The printed index maps over the grid: x's block and the result's block sit at block row t, column 0; the two
    matrices' one block at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of `through` of the arrays as the region finds them. -/
theorem flushed_eq (c : Dev nD) (t : Fin cfg0.N) :
    (dats m 0 c).flushed 3 t = ((cfg0.win 3).blk t).view.read (Elt Ideal)
      (through (V m c main_arg0) (V m c main_v5) (V m c main_v6)) := by
  rw [Value.flushed3_A, out_block]
  obtain ⟨e00, e01, e10, e11, e20, e21, e30, e31⟩ := idx_facts t
  funext j
  show throughAt (iblk m c 0 t) (iblk m c 1 t) (iblk m c 2 t) (j 0) (j 1)
    = throughAt (V m c main_arg0) (V m c main_v5) (V m c main_v6)
        ((((cfg0.win 3).blk t).view.emb j) 0) ((((cfg0.win 3).blk t).view.emb j) 1)
  refine throughAt_congr _ _ _ _ _ _ _ _ _ _ (fun i => ?_) (fun i k => ?_) (fun k => ?_)
  · show V m c main_arg0 (((cfg0.win 0).blk t).view.emb (ix2 (j 0) i))
      = V m c main_arg0 (ix2 ((((cfg0.win 3).blk t).view.emb j) 0) i)
    have h : ((cfg0.win 0).blk t).view.emb (ix2 (j 0) i) = ix2 ((((cfg0.win 3).blk t).view.emb j) 0) i := by
      funext a; apply Fin.ext
      match a with
      | ⟨0, _⟩ => show win0_0.index t (0 : Fin 2) * 512 + 1 * (j 0).val = win0_3.index t (0 : Fin 2) * 512 + 1 * (j 0).val; omega
      | ⟨1, _⟩ => show win0_0.index t (1 : Fin 2) * 1024 + 1 * i.val = i.val; omega
    exact congrArg (V m c main_arg0) h
  · show V m c main_v5 (((cfg0.win 1).blk t).view.emb (ix2 i k)) = V m c main_v5 (ix2 i k)
    have h : ((cfg0.win 1).blk t).view.emb (ix2 i k) = ix2 i k := by
      funext a; apply Fin.ext
      match a with
      | ⟨0, _⟩ => show win0_1.index t (0 : Fin 2) * 1024 + 1 * i.val = i.val; omega
      | ⟨1, _⟩ => show win0_1.index t (1 : Fin 2) * 1024 + 1 * k.val = k.val; omega
    exact congrArg (V m c main_v5) h
  · show V m c main_v6 (((cfg0.win 2).blk t).view.emb (ix2 (j 1) k))
      = V m c main_v6 (ix2 ((((cfg0.win 3).blk t).view.emb j) 1) k)
    have h : ((cfg0.win 2).blk t).view.emb (ix2 (j 1) k) = ix2 ((((cfg0.win 3).blk t).view.emb j) 1) k := by
      funext a; apply Fin.ext
      match a with
      | ⟨0, _⟩ => show win0_2.index t (0 : Fin 2) * 4096 + 1 * (j 1).val = win0_3.index t (1 : Fin 2) * 4096 + 1 * (j 1).val; omega
      | ⟨1, _⟩ => show win0_2.index t (1 : Fin 2) * 1024 + 1 * k.val = k.val; omega
    exact congrArg (V m c main_v6) h

/-- An index of the result is in point t's block iff each coordinate is in the block's range on its axis. -/
theorem mem_blk (t : Fin cfg0.N) (i : S8192x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v7).slice (win0_3.rect t)).set ↔ _
  rw [View.set_slice_whole, Rect.mem_set_unit]
  exact Iff.rfl

/-- Every index of the result is in the block of the point its row falls in. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 16 := N_0
  obtain ⟨t, ht⟩ : ∃ t : Fin cfg0.N, t.val = (i 0).val / 512 := ⟨⟨(i 0).val / 512, by rw [hN]; omega⟩, rfl⟩
  refine ⟨t, flush0_3 t, ?_⟩
  rw [mem_blk]
  obtain ⟨-, -, -, -, -, -, e30, e31⟩ := idx_facts t
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 4096 ≤ (i 1).val ∧ (i 1).val < win0_3.index t (1 : Fin 2) * 4096 + 4096
    omega

/-- The result array after the run. -/
theorem final (c : Dev nD) :
    (dats m 0 c).arrAt 3 cfg0.N = through (V m c main_arg0) (V m c main_v5) (V m c main_v6) :=
  (dats m 0 c).arrAt_eq_of_cover 3 _ (fun t _ => flushed_eq m c t) cover

/-- The scaled matrix as the region finds it. -/
theorem V_scaled (c : Dev nD) :
    (V m c main_v5 : S1024x1024.Idx → EReal)
      = scaled (m ((c : Thread nD τ).loc main_arg1)) (m ((c : Thread nD τ).loc main_arg3)) := by
  dsimp only [Gen.V, Gen.hostOps0]
  after_results
  rfl

/-- The last matrix as the region finds it. -/
theorem V_last (c : Dev nD) :
    (V m c main_v6 : S4096x1024.Idx → EReal) = m ((c : Thread nD τ).loc main_arg2) := by
  dsimp only [Gen.V, Gen.hostOps0]
  after_results
  rfl

/-- The kernel's run: the result array is (x · scaled B) · Cᵀ of the arguments, which end unchanged. -/
theorem run : θ_run defs (onTc (τ := τ) (main (F := Ideal))) ⟨m, fun _ => 0, ρ⟩ fun r => ∀ c : Dev nD,
      r.2.mem ((c : Thread nD τ).loc main_v7)
        = through (m ((c : Thread nD τ).loc main_arg0))
            (scaled (m ((c : Thread nD τ).loc main_arg1)) (m ((c : Thread nD τ).loc main_arg3)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      rw [V_main_arg0, V_scaled, V_last])), (h c).2⟩)
    (Value.run_blocks m ρ)

end Cert.KernelIdeal.ArrayValue

end
-- ==== Proof.ReferenceValue.lean ====
/-
  The reference's result is the same function of its arguments.

  The reference scales the columns of B, multiplies x by the scaled matrix, transposes C and multiplies again:
  entry (p, q) of its result is ∑ k, (∑ i, x[p,i] · bs[i,k]) · Cᵀ[k,q], and Cᵀ[k,q] = C[q,k]. Read one operation at
  a time, the two host products are sums over the contracted axis and the transpose swaps the two coordinates, so
  the result is `through x bs C` index by index, with the same products in the same order.
-/
import proofs.«108876_j52269751992477_2_alg».proof.Proof.Gen.ReferenceIdeal.Read
import proofs.«108876_j52269751992477_2_alg».proof.Proof.LibTwoProducts

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open Cert.TwoProducts

/-- The reference's last stage is (x · bs) · Cᵀ, with bs the stage that scales B's columns. -/
theorem result_eq (x0 : (⟨S8192x1024, .f32⟩ : BufTy).Contents (Elt Ideal)) (x1 : (⟨S1024x1024, .f32⟩ : BufTy).Contents (Elt Ideal))
    (x2 : (⟨S4096x1024, .f32⟩ : BufTy).Contents (Elt Ideal)) (x3 : (⟨S512, .f32⟩ : BufTy).Contents (Elt Ideal)) :
    val_main_v7 (F := Ideal) x0 x1 x2 x3 = through x0 (val_main_v4 (F := Ideal) x1 x3) x2 := by
  funext i
  have e1 : ∀ k k' : Fin 1024, lidx_main_v5 (lidx_main_v7 i k) k' = ix2 (i 0) k' := fun k k' =>
    funext fun a => Fin.ext (by match a with | ⟨0, _⟩ => rfl | ⟨1, _⟩ => rfl)
  have e2 : ∀ k k' : Fin 1024, ridx_main_v5 (lidx_main_v7 i k) k' = ix2 k' k := fun k k' =>
    funext fun a => Fin.ext (by match a with | ⟨0, _⟩ => rfl | ⟨1, _⟩ => rfl)
  have e3 : ∀ k : Fin 1024, idx_main_v6 (ridx_main_v7 i k) = ix2 (i 1) k := fun k =>
    funext fun a => Fin.ext (by match a with | ⟨0, _⟩ => rfl | ⟨1, _⟩ => rfl)
  rw [val_main_v7_apply]
  simp only [val_main_v5_apply, val_main_v6_apply, e1, e2, e3]
  rfl

end Cert.ReferenceIdeal.RefValue

end
-- ==== Proof.lean ====
/-
  The kernel computes out = (x · (B ∘ s)) · Cᵀ for x of 8192 rows and width 1024, B of 1024 × 1024 whose column k is
  scaled by s[k] (s the vector of 512 scales with every entry repeated twice), and C of 4096 rows and width 1024; the
  reference computes the same expression with jnp. On the extended reals entry (p, q) of both results is

      ∑ k < 1024, (∑ i < 1024, x[p,i] · (B[i,k] · s[k])) · C[q,k].

  The kernel reaches it 512 rows at a time: each grid point forms the product of its block of rows of x with the
  scaled matrix once and multiplies it against four chunks of 1024 rows of C, writing the four column ranges of its
  512 × 4096 block of the result; narrowing to the 16-bit format before each product is the identity on extended
  reals and each product starts from a zero accumulator. The reference transposes C and contracts the first axis of
  the transpose, which reads C[q,k] again. Both sides are the same sums of the same products in the same order, so
  no algebraic law, and hence no finiteness of the inputs, is needed: the precondition is not opened.

  The idealized kernel is the kernel's own text read on the extended reals (nothing was rewritten), so the
  idealization claim is trivial; the three frame claims are the generated frames and the reference's generated run.
-/
import proofs.«108876_j52269751992477_2_alg».proof.Defs
import proofs.«108876_j52269751992477_2_alg».proof.Proof.Gen.Kernel
import proofs.«108876_j52269751992477_2_alg».proof.Proof.Gen.Kernel.Skeleton
import proofs.«108876_j52269751992477_2_alg».proof.Proof.Gen.Kernel.Launch
import proofs.«108876_j52269751992477_2_alg».proof.Proof.Gen.Kernel.Points
import proofs.«108876_j52269751992477_2_alg».proof.Proof.Gen.Kernel.Frame
import proofs.«108876_j52269751992477_2_alg».proof.Proof.Gen.KernelIdeal
import proofs.«108876_j52269751992477_2_alg».proof.Proof.Gen.KernelIdeal.Skeleton
import proofs.«108876_j52269751992477_2_alg».proof.Proof.Gen.KernelIdeal.Launch
import proofs.«108876_j52269751992477_2_alg».proof.Proof.Gen.KernelIdeal.Points
import proofs.«108876_j52269751992477_2_alg».proof.Proof.Gen.KernelIdeal.Frame
import proofs.«108876_j52269751992477_2_alg».proof.Proof.Gen.ReferenceIdeal
import proofs.«108876_j52269751992477_2_alg».proof.Proof.Gen.Pre_finite_inputs
import proofs.«108876_j52269751992477_2_alg».proof.Proof.Gen.KernelIdeal.Value
import proofs.«108876_j52269751992477_2_alg».proof.Proof.Gen.ReferenceIdeal.Run
import proofs.«108876_j52269751992477_2_alg».proof.Proof.Gen.ReferenceIdeal.Read
import proofs.«108876_j52269751992477_2_alg».proof.Proof.ArrayValue
import proofs.«108876_j52269751992477_2_alg».proof.Proof.ReferenceValue
import Idealize.ShloMosaic.Adequacy
import Idealize.ShloMosaic.Init

noncomputable section

namespace Cert.Proof

open Idealize.ShloMosaic Idealize.ShloMosaic.TcCoe Idealize.SL.Sem

/-- The scaled matrix is one term on both sides: the same four host operations on B and the scales. -/
theorem scaled_eq (x1 : FVec Ideal Cert.KernelIdeal.S1024x1024 .f32) (x3 : FVec Ideal Cert.KernelIdeal.S512 .f32) :
    Cert.ReferenceIdeal.Read.val_main_v4 (F := Ideal) x1 x3 = Cert.KernelIdeal.ArrayValue.scaled x1 x3 := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- Both runs end with the result array at (x · scaled B) · Cᵀ of arguments that agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v7_eq,
    Cert.ReferenceIdeal.RefValue.result_eq, scaled_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
